-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16 : Shape := ⟨1, ![16]⟩
abbrev S16x1024 : Shape := ⟨2, ![16, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16 : S_.BroadcastsInDim S16 (![] : Fin 0 → Fin S16.rank)
  reducesTo_S16_S_d0 : S16.ReducesTo [0] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S4x2048x1024 .f32) (main_arg1 : FVec F S16 .f32) (main_arg2 : FVec F S16x1024 .f32) (main_arg3 : FVec F S16 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S4x2048x1024 : Shape := ⟨3, ![4, 2048, 1024]⟩
abbrev S16 : Shape := ⟨1, ![16]⟩
abbrev S16x1024 : Shape := ⟨2, ![16, 1024]⟩
abbrev S1x16 : Shape := ⟨2, ![1, 16]⟩
abbrev S2048x4x16 : Shape := ⟨3, ![2048, 4, 16]⟩
abbrev S4x256x1024 : Shape := ⟨3, ![4, 256, 1024]⟩
abbrev S256x4x16 : Shape := ⟨3, ![256, 4, 16]⟩
abbrev S1x256x1024 : Shape := ⟨3, ![1, 256, 1024]⟩
abbrev S256x1024 : Shape := ⟨2, ![256, 1024]⟩
abbrev S256x16 : Shape := ⟨2, ![256, 16]⟩
abbrev S256x1x16 : Shape := ⟨3, ![256, 1, 16]⟩
abbrev S2047x4x16 : Shape := ⟨3, ![2047, 4, 16]⟩

abbrev nBuf : Space → Nat
  | .hbm => 8
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S16, .f32⟩
  | .hbm, ⟨2, _⟩ => ⟨S16x1024, .f32⟩
  | .hbm, ⟨3, _⟩ => ⟨S16, .f32⟩
  | .hbm, ⟨4, _⟩ => ⟨S1x16, .f32⟩
  | .hbm, ⟨5, _⟩ => ⟨S1x16, .f32⟩
  | .hbm, ⟨6, _⟩ => ⟨S2048x4x16, .f32⟩
  | .hbm, ⟨7, _⟩ => ⟨S2047x4x16, .f32⟩
  | .local _ .vmem, ⟨0, _⟩ => ⟨S4x256x1024, .f32⟩
  | .local _ .vmem, ⟨1, _⟩ => ⟨S4x256x1024, .f32⟩
  | .local _ .vmem, ⟨2, _⟩ => ⟨S16x1024, .f32⟩
  | .local _ .vmem, ⟨3, _⟩ => ⟨S1x16, .f32⟩
  | .local _ .vmem, ⟨4, _⟩ => ⟨S1x16, .f32⟩
  | .local _ .vmem, ⟨5, _⟩ => ⟨S256x4x16, .f32⟩
  | .local _ .vmem, ⟨6, _⟩ => ⟨S256x4x16, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S1x16 : S16.ShapeCasts S1x16
  inb_S16x1024_S16x1024_0_0 : ∀ a, (![0, 0] : Fin 2 → Nat) a + S16x1024.size a ≤ S16x1024.size a
  h_S16x1024 : 0 < S16x1024.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  broadcasts_S1x16_S256x16 : S1x16.Broadcasts S256x16
  inb_S256x4x16_S256x1x16_0_0_0 : ∀ a, (![0, 0, 0] : Fin 3 → Nat) a + S256x1x16.size a ≤ S256x4x16.size a
  h_S256x1x16 : 0 < S256x1x16.numel
  shapeCasts_S256x1x16_S256x16 : S256x1x16.ShapeCasts S256x16
  shapeCasts_S256x16_S256x1x16 : S256x16.ShapeCasts S256x1x16
  inb_S4x256x1024_S1x256x1024_1_0_0 : ∀ a, (![1, 0, 0] : Fin 3 → Nat) a + S1x256x1024.size a ≤ S4x256x1024.size a
  inb_S256x4x16_S256x1x16_0_1_0 : ∀ a, (![0, 1, 0] : Fin 3 → Nat) a + S256x1x16.size a ≤ S256x4x16.size a
  inb_S4x256x1024_S1x256x1024_2_0_0 : ∀ a, (![2, 0, 0] : Fin 3 → Nat) a + S1x256x1024.size a ≤ S4x256x1024.size a
  inb_S256x4x16_S256x1x16_0_2_0 : ∀ a, (![0, 2, 0] : Fin 3 → Nat) a + S256x1x16.size a ≤ S256x4x16.size a
  inb_S4x256x1024_S1x256x1024_3_0_0 : ∀ a, (![3, 0, 0] : Fin 3 → Nat) a + S1x256x1024.size a ≤ S4x256x1024.size a
  inb_S256x4x16_S256x1x16_0_3_0 : ∀ a, (![0, 3, 0] : Fin 3 → Nat) a + S256x1x16.size a ≤ S256x4x16.size a
  slices_S2048x4x16_S2047x4x16_1_0_0 : S2048x4x16.Slices ![1, 0, 0] S2047x4x16
  dot_S256x1024_S16x1024_S256x16_1_1_0_0_n_n_wf : DotDims.WF S256x1024 S16x1024 S256x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x2048x1024.size a
  hwx0_0 : ∀ i : grid0.Coords, EltTy.bits .f32 = 32 ∨ (Rect.block (s := S4x2048x1024) S4x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4x16.size a ≤ S2048x4x16.size a
  hwx0_4 : ∀ i : grid0.Coords, EltTy.bits .f32 = 32 ∨ (Rect.block (s := S2048x4x16) S256x4x16.size (cc0_transform_4 i) (hinb0_4 i)).WholeWords (EltTy.packing .f32)

variable [Facts₀]

def dot_S256x1024_S16x1024_S256x16_1_1_0_0_n_n : DotDims S256x1024 S16x1024 S256x16 where
  lhsContracting := [1]
  rhsContracting := [1]
  lhsNonContracting := [0]
  rhsNonContracting := [0]
  lhsBatch := []
  rhsBatch := []
  wf := dot_S256x1024_S16x1024_S256x16_1_1_0_0_n_n_wf

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x4x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S16 : Shape := ⟨1, ![16]⟩
abbrev S16x1024 : Shape := ⟨2, ![16, 1024]⟩
abbrev S4x2047x1024 : Shape := ⟨3, ![4, 2047, 1024]⟩
abbrev S4x2047x16 : Shape := ⟨3, ![4, 2047, 16]⟩
abbrev S1x1x16 : Shape := ⟨3, ![1, 1, 16]⟩
abbrev S2047x4x16 : Shape := ⟨3, ![2047, 4, 16]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S16, .f32⟩
  | .hbm, ⟨2, _⟩ => ⟨S16x1024, .f32⟩
  | .hbm, ⟨3, _⟩ => ⟨S16, .f32⟩
  | .hbm, ⟨4, _⟩ => ⟨S4x2047x1024, .f32⟩
  | .hbm, ⟨5, _⟩ => ⟨S4x2047x16, .f32⟩
  | .hbm, ⟨6, _⟩ => ⟨S1x1x16, .f32⟩
  | .hbm, ⟨7, _⟩ => ⟨S4x2047x16, .f32⟩
  | .hbm, ⟨8, _⟩ => ⟨S4x2047x16, .f32⟩
  | .hbm, ⟨9, _⟩ => ⟨S1x1x16, .f32⟩
  | .hbm, ⟨10, _⟩ => ⟨S4x2047x16, .f32⟩
  | .hbm, ⟨11, _⟩ => ⟨S4x2047x16, .f32⟩
  | .hbm, ⟨12, _⟩ => ⟨S2047x4x16, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  slices_S4x2048x1024_S4x2047x1024_0_1_0 : S4x2048x1024.Slices ![0, 1, 0] S4x2047x1024
  bcast_S16_S1x1x16_2 : S16.BroadcastsInDim S1x1x16 (![2] : Fin 1 → Fin S1x1x16.rank)
  bcast_S1x1x16_S4x2047x16_0_1_2 : S1x1x16.BroadcastsInDim S4x2047x16 (![0, 1, 2] : Fin 3 → Fin S4x2047x16.rank)
  transposes_S4x2047x16_S2047x4x16_1_0_2 : S4x2047x16.Transposes [1, 0, 2] S2047x4x16
  dot_S4x2047x1024_S16x1024_S4x2047x16_2_1_01_0_n_n_wf : DotDims.WF S4x2047x1024 S16x1024 S4x2047x16 [2] [1] [0, 1] [0] [] []

variable [Facts₀]

def dot_S4x2047x1024_S16x1024_S4x2047x16_2_1_01_0_n_n : DotDims S4x2047x1024 S16x1024 S4x2047x16 where
  lhsContracting := [2]
  rhsContracting := [1]
  lhsNonContracting := [0, 1]
  rhsNonContracting := [0]
  lhsBatch := []
  rhsBatch := []
  wf := dot_S4x2047x1024_S16x1024_S4x2047x16_2_1_01_0_n_n_wf

class Facts : Prop extends Facts₀ where

variable [Facts]
-- ==== Proof.Spec.lean ====
/-
  The router's scores as ONE function of the four argument arrays.

  For a batch row `b`, a time step `t` and an expert `e` the score is
      (∑ₖ seq[b, t, k] · W[e, k] + bias[e]) · scale[e]
  on the extended reals: the dot product of the step's feature row with the expert's weight row, the expert's bias
  added, the sum multiplied by the expert's scale.  `allSteps` lays the scores of all 2048 steps out as an array
  [2048, 4, 16] (step, batch row, expert); `laterSteps` is the same array without step 0, [2047, 4, 16], whose
  entry (t, b, e) is the score of step t + 1.  The bias and the scale enter as functions of the expert, so that
  a vector [16] and a row [1, 16] holding the same sixteen numbers give the same scores.
-/
import Idealize.ShloMosaic.PureOps.Ideal
import Idealize.ShloMosaic.Lib.ValueIdx
import Idealize.ShloMosaic.Lib.Pipeline.Value

noncomputable section

namespace Cert.Router

open Idealize.ShloMosaic Idealize.ShloMosaic.ValueIdx

/-- The score of expert `e` for batch row `b` at time step `t`. -/
def stepScore (seq : FVec Ideal ⟨3, ![4, 2048, 1024]⟩ .f32) (W : FVec Ideal ⟨2, ![16, 1024]⟩ .f32)
    (scale bias : Fin 16 → EReal) (t : Fin 2048) (b : Fin 4) (e : Fin 16) : EReal :=
  (∑ k : Fin 1024, seq (ix3 b t k) * W (ix2 e k) + bias e) * scale e

/-- The scores of every time step, as an array [2048, 4, 16]. -/
def allSteps (seq : FVec Ideal ⟨3, ![4, 2048, 1024]⟩ .f32) (W : FVec Ideal ⟨2, ![16, 1024]⟩ .f32)
    (scale bias : Fin 16 → EReal) : FVec Ideal ⟨3, ![2048, 4, 16]⟩ .f32 :=
  fun i => stepScore seq W scale bias (i 0) (i 1) (i 2)

/-- Step `t + 1` is a step. -/
theorem succ_step_lt (i : (⟨3, ![2047, 4, 16]⟩ : Shape).Idx) : 1 + (i 0).val < 2048 := by
  have h : (i 0).val < 2047 := (i 0).isLt
  omega

/-- The scores of the steps after the first, as an array [2047, 4, 16]: entry (t, b, e) is step t + 1's. -/
def laterSteps (seq : FVec Ideal ⟨3, ![4, 2048, 1024]⟩ .f32) (W : FVec Ideal ⟨2, ![16, 1024]⟩ .f32)
    (scale bias : Fin 16 → EReal) : FVec Ideal ⟨3, ![2047, 4, 16]⟩ .f32 :=
  fun i => stepScore seq W scale bias ⟨1 + (i 0).val, succ_step_lt i⟩ (i 1) (i 2)

/-- Dropping step 0 from the array of all steps leaves the later steps. -/
theorem slice_allSteps (seq : FVec Ideal ⟨3, ![4, 2048, 1024]⟩ .f32) (W : FVec Ideal ⟨2, ![16, 1024]⟩ .f32)
    (scale bias : Fin 16 → EReal)
    (h : (⟨3, ![2048, 4, 16]⟩ : Shape).Slices ![1, 0, 0] ⟨3, ![2047, 4, 16]⟩) :
    extractStridedSlice ⟨3, ![2047, 4, 16]⟩ ![1, 0, 0] (allSteps seq W scale bias) h = laterSteps seq W scale bias := by
  funext i
  refine (extractStridedSlice_apply ![1, 0, 0] (allSteps seq W scale bias) h i
    (ix3 ⟨1 + (i 0).val, succ_step_lt i⟩ (i 1) (i 2)) (fun a => ?_)).trans rfl
  match a with
  | ⟨0, _⟩ => rfl
  | ⟨1, _⟩ => show (i 1).val = 0 + (i 1).val; omega
  | ⟨2, _⟩ => show (i 2).val = 0 + (i 2).val; omega

end Cert.Router

end
-- ==== Proof.Reference.lean ====
/-
  The reference computes the later steps' scores.

  The reference drops step 0 of the features, contracts the feature axis of the remaining [4, 2047, 1024] array with
  the feature axis of the weights, adds the bias and multiplies by the scale — both vectors [16] broadcast over
  the batch rows and the steps — and finally swaps the batch and step axes.  Read at an entry (t, b, e) of the
  result, stage by stage, that is  (∑ₖ seq[b, 1 + t, k] · W[e, k] + bias[e]) · scale[e] :  the score of step t + 1.
-/
import proofs.«133416_g24249385353843_cont_9to1_321_4_alg».proof.Proof.Gen.ReferenceIdeal.Read
import proofs.«133416_g24249385353843_cont_9to1_321_4_alg».proof.Proof.Spec

noncomputable section

namespace Cert.Router.Reference

open Idealize.ShloMosaic Idealize.ShloMosaic.ValueIdx Cert.ReferenceIdeal Cert.ReferenceIdeal.Read Cert.Router

/-- The reference's result, as a function of its four arguments, is the array of the later steps' scores. -/
theorem result_eq (x0 : FVec Ideal S4x2048x1024 .f32) (x1 : FVec Ideal S16 .f32) (x2 : FVec Ideal S16x1024 .f32)
    (x3 : FVec Ideal S16 .f32) :
    val_main_v8 (F := Ideal) x0 x1 x2 x3 = laterSteps x0 x2 (fun e => x1 (ix1 e)) (fun e => x3 (ix1 e)) := by
  funext i
  have e0 : ∀ k : Fin 1024, idx_main_v0 (lidx_main_v1 (idx_main_v8 i) k) = ix3 (i 1) ⟨1 + (i 0).val, succ_step_lt i⟩ k :=
    fun k => funext fun a => match a with
      | ⟨0, _⟩ => rfl
      | ⟨1, _⟩ => rfl
      | ⟨2, _⟩ => rfl
  have e2 : ∀ k : Fin 1024, ridx_main_v1 (idx_main_v8 i) k = ix2 (i 2) k :=
    fun k => funext fun a => match a with
      | ⟨0, _⟩ => rfl
      | ⟨1, _⟩ => rfl
  have e3 : idx_main_v2 (idx_main_v3 (idx_main_v8 i)) = ix1 (i 2) :=
    funext fun a => match a with
      | ⟨0, _⟩ => rfl
  have e1 : idx_main_v5 (idx_main_v6 (idx_main_v8 i)) = ix1 (i 2) :=
    funext fun a => match a with
      | ⟨0, _⟩ => rfl
  rw [val_main_v8_apply, val_main_v7_apply, val_main_v4_apply, val_main_v1_apply, val_main_v3_apply, val_main_v2_apply,
    val_main_v6_apply, val_main_v5_apply]
  simp only [val_main_v0_apply, e0, e2, e3, e1, Ideal.addf_def, Ideal.mulf_def]
  rfl

end Cert.Router.Reference

end
-- ==== Proof.RowScores.lean ====
/-
  What one store of the kernel body writes: the scores of ONE batch row for the 256 time steps of a block.

  The body handles the four batch rows one after the other.  For a row it takes the row's [1, 256, 1024] slab
  of features `x`, drops the unit axis, multiplies the [256, 1024] matrix by the transposed [16, 1024] weight
  block `w` (contracting the two feature axes) into a zero accumulator, adds the bias row `bb` and multiplies by the
  scale row `p`, both [1, 16] rows broadcast down the 256 steps, and stores the [256, 16] result as a [256, 1, 16]
  slab.  On the extended reals the narrowing of the operands to a shorter float format is the identity and the
  product into a zero accumulator is the plain sum, so entry (r, 0, e) of the stored slab is
      (∑ₖ x[0, r, k] · w[e, k] + bb[0, e]) · p[0, e].
  The four stores of the body apply this same function to the four slabs.
-/
import proofs.«133416_g24249385353843_cont_9to1_321_4_alg».proof.Proof.Gen.KernelIdeal.Skeleton
import Idealize.ShloMosaic.Lib.Pipeline.Value
import Idealize.ShloMosaic.Lib.ValueIdx
import Idealize.ShloMosaic.PureOps.Ideal.Laws

noncomputable section

namespace Cert.Router.Kernel

open Idealize.ShloMosaic Idealize.ShloMosaic.ValueIdx Cert.KernelIdeal Cert.KernelIdeal.Gen

/-- The scores of one batch row over a block of 256 steps, from the row's slab of features, the weights, the
    scale row and the bias row. -/
def rowScores (w : FVec Ideal S16x1024 .f32) (p bb : FVec Ideal S1x16 .f32) (x : FVec Ideal S1x256x1024 .f32) :
    FVec Ideal S256x1x16 .f32 :=
  fun y => (∑ k : Fin 1024, x (ix3 0 (y 0) k) * w (ix2 (y 2) k) + bb (ix2 0 (y 2))) * p (ix2 0 (y 2))

/-- Where the product reads its operands, coordinate by coordinate: the left operand's row is the output's row, -/
theorem lhs_row (i : S256x16.Idx) (q : dot_S256x1024_S16x1024_S256x16_1_1_0_0_n_n.contr.Idx) :
    (dot_S256x1024_S16x1024_S256x16_1_1_0_0_n_n.lhsIdx i q 0).val = (i 0).val := by
  unfold DotDims.lhsIdx
  rw [dif_neg (show ¬(0 : Fin S256x1024.rank) ∈ dot_S256x1024_S16x1024_S256x16_1_1_0_0_n_n.lhsBatch by decide),
    dif_pos (show (0 : Fin S256x1024.rank) ∈ dot_S256x1024_S16x1024_S256x16_1_1_0_0_n_n.lhsNonContracting by decide)]
  rfl
/-- its column the contraction position; -/
theorem lhs_col (i : S256x16.Idx) (q : dot_S256x1024_S16x1024_S256x16_1_1_0_0_n_n.contr.Idx) :
    (dot_S256x1024_S16x1024_S256x16_1_1_0_0_n_n.lhsIdx i q 1).val = (q ⟨0, by decide⟩).val :=
  dot_S256x1024_S16x1024_S256x16_1_1_0_0_n_n.lhsIdx_val_of_single rfl i q
/-- the right operand's row is the output's column (the weights enter transposed), -/
theorem rhs_row (i : S256x16.Idx) (q : dot_S256x1024_S16x1024_S256x16_1_1_0_0_n_n.contr.Idx) :
    (dot_S256x1024_S16x1024_S256x16_1_1_0_0_n_n.rhsIdx i q 0).val = (i 1).val := by
  unfold DotDims.rhsIdx
  rw [dif_neg (show ¬(0 : Fin S16x1024.rank) ∈ dot_S256x1024_S16x1024_S256x16_1_1_0_0_n_n.rhsBatch by decide),
    dif_pos (show (0 : Fin S16x1024.rank) ∈ dot_S256x1024_S16x1024_S256x16_1_1_0_0_n_n.rhsNonContracting by decide)]
  rfl
/-- its column the contraction position. -/
theorem rhs_col (i : S256x16.Idx) (q : dot_S256x1024_S16x1024_S256x16_1_1_0_0_n_n.contr.Idx) :
    (dot_S256x1024_S16x1024_S256x16_1_1_0_0_n_n.rhsIdx i q 1).val = (q ⟨0, by decide⟩).val :=
  dot_S256x1024_S16x1024_S256x16_1_1_0_0_n_n.rhsIdx_val_of_single rfl i q

/-- The left operand's index of the product at output entry (r, e) and contraction position k is (r, k). -/
theorem lhsIdx_at (r : Fin 256) (e : Fin 16) (k : Fin 1024) :
    dot_S256x1024_S16x1024_S256x16_1_1_0_0_n_n.lhsIdx (ix2 r e) ((contrEquiv1 dot_S256x1024_S16x1024_S256x16_1_1_0_0_n_n 1024 rfl rfl).symm k) = ix2 r k := by
  have hk := contrEquiv1_symm_val dot_S256x1024_S16x1024_S256x16_1_1_0_0_n_n 1024 rfl rfl k
  exact funext fun a => Fin.ext (by
    match a with
    | ⟨0, _⟩ => exact lhs_row _ _
    | ⟨1, _⟩ => exact (lhs_col _ _).trans hk)

/-- The right operand's index there is (e, k). -/
theorem rhsIdx_at (r : Fin 256) (e : Fin 16) (k : Fin 1024) :
    dot_S256x1024_S16x1024_S256x16_1_1_0_0_n_n.rhsIdx (ix2 r e) ((contrEquiv1 dot_S256x1024_S16x1024_S256x16_1_1_0_0_n_n 1024 rfl rfl).symm k) = ix2 e k := by
  have hk := contrEquiv1_symm_val dot_S256x1024_S16x1024_S256x16_1_1_0_0_n_n 1024 rfl rfl k
  exact funext fun a => Fin.ext (by
    match a with
    | ⟨0, _⟩ => exact rhs_row _ _
    | ⟨1, _⟩ => exact (rhs_col _ _).trans hk)

/-- The product of a [256, 1024] matrix with the transposed [16, 1024] one into a zero accumulator, at entry
    (r, e): the dot product of row r of the first with row e of the second. -/
theorem product_at (a : FVec Ideal S256x1024 .bf16) (w : FVec Ideal S16x1024 .bf16) (r : Fin 256) (e : Fin 16) :
    matmul dot_S256x1024_S16x1024_S256x16_1_1_0_0_n_n none a w (constant S256x16 .f32 0x00000000#32) (ix2 r e)
      = ∑ k : Fin 1024, a (ix2 r k) * w (ix2 e k) := by
  refine (Ideal.matmul_constant_zero_apply dot_S256x1024_S16x1024_S256x16_1_1_0_0_n_n none a w (ix2 r e)).trans ?_
  refine (Equiv.sum_comp (contrEquiv1 dot_S256x1024_S16x1024_S256x16_1_1_0_0_n_n 1024 rfl rfl).symm _).symm.trans ?_
  refine Finset.sum_congr rfl fun k _ => ?_
  rw [lhsIdx_at, rhsIdx_at]

/-- A slab [1, 256, 1024] viewed as a matrix [256, 1024] keeps entry (0, r, k) at (r, k). -/
theorem slab_at (x : FVec Ideal S1x256x1024 .f32) (h : S1x256x1024.ShapeCasts S256x1024) (r : Fin 256) (k : Fin 1024) :
    shapeCast S256x1024 x h (ix2 r k) = x (ix3 0 r k) :=
  shapeCast_apply x h (ix2 r k) (ix3 0 r k) (by
    rw [Shape.rowMajor_val_three, Shape.rowMajor_val_two]
    show (0 * 256 + r.val) * 1024 + k.val = r.val * 1024 + k.val
    omega)

/-- A row [1, 16] broadcast down 256 steps reads its entry (0, e) at every (r, e). -/
theorem row_at (v : FVec Ideal S1x16 .f32) (h : S1x16.Broadcasts S256x16) (r : Fin 256) (e : Fin 16) :
    broadcastTo S256x16 v h (ix2 r e) = v (ix2 0 e) :=
  broadcastTo_apply v h (ix2 r e) (ix2 0 e) (fun a => match a with
    | ⟨0, _⟩ => by show 0 = if (1 : Nat) = 1 then 0 else _; rw [if_pos rfl]
    | ⟨1, _⟩ => by show e.val = if (16 : Nat) = 1 then 0 else e.val; rw [if_neg (by decide)])

/-- A matrix [256, 16] stored as a slab [256, 1, 16] keeps entry (r, e) at (r, 0, e). -/
theorem stored_at (v : FVec Ideal S256x16 .f32) (h : S256x16.ShapeCasts S256x1x16) (r : Fin 256) (u : Fin 1) (e : Fin 16) :
    shapeCast S256x1x16 v h (ix3 r u e) = v (ix2 r e) :=
  shapeCast_apply v h (ix3 r u e) (ix2 r e) (by
    rw [Shape.rowMajor_val_three, Shape.rowMajor_val_two]
    show r.val * 16 + e.val = (r.val * 1 + u.val) * 16 + e.val
    have hu : u.val < 1 := u.isLt
    omega)

/-- The first store's payload is the scores of the slab it loaded. -/
theorem pay6_eq (w : FVec Ideal S16x1024 .f32) (p bb : FVec Ideal S1x16 .f32) (x : FVec Ideal S1x256x1024 .f32) :
    k0_pay6 (F := Ideal) w p bb x = rowScores w p bb x := by
  funext y
  obtain ⟨r, u, e, rfl⟩ : ∃ (r : Fin 256) (u : Fin 1) (e : Fin 16), y = ix3 r u e := ⟨y 0, y 1, y 2, eq_ix3 y⟩
  unfold k0_pay6 k0_pay3 k0_pay4 k0_pay5
  refine (stored_at _ _ r u e).trans ?_
  refine (mulf_apply _ _ _).trans ?_
  refine congrArg₂ (· * ·) ((addf_apply _ _ _).trans (congrArg₂ (· + ·) ?_ ?_)) ?_
  · refine (product_at _ _ r e).trans (Finset.sum_congr rfl fun k _ => ?_)
    exact congrArg (· * w (ix2 e k)) (slab_at x _ r k)
  · exact (row_at _ _ r e).trans (congrFun (shapeCast_self bb _) _)
  · exact (row_at _ _ r e).trans (congrFun (shapeCast_self p _) _)

/-- The second store's payload is the same function of its slab. -/
theorem pay7_eq (w : FVec Ideal S16x1024 .f32) (p bb : FVec Ideal S1x16 .f32) (x : FVec Ideal S1x256x1024 .f32) :
    k0_pay7 (F := Ideal) w p bb x = rowScores w p bb x := (pay6_eq w p bb x)

/-- The third store's payload, computed in two halves (the product first, the bias and the scale after), is the
    same function of its slab. -/
theorem pay1_eq (w : FVec Ideal S16x1024 .f32) (p bb : FVec Ideal S1x16 .f32) (x : FVec Ideal S1x256x1024 .f32) :
    k0_pay1 (F := Ideal) (k0_pay4 p) (k0_pay8 w x) (k0_pay9 bb) = rowScores w p bb x := (pay6_eq w p bb x)

/-- The fourth store's payload is the same function of its slab. -/
theorem pay2_eq (w : FVec Ideal S16x1024 .f32) (p bb : FVec Ideal S1x16 .f32) (x : FVec Ideal S1x256x1024 .f32) :
    k0_pay2 (F := Ideal) (k0_pay3 w) (k0_pay4 p) (k0_pay5 bb) x = rowScores w p bb x := (pay6_eq w p bb x)

end Cert.Router.Kernel

end
-- ==== Proof.BlockScores.lean ====
/-
  What the kernel body leaves in its output block: the scores of all four batch rows over the block's 256 steps.

  The output block is [256, 4, 16] (step, batch row, expert).  The body's four stores write the four batch rows of
  it, store number `b` writing the [256, 1, 16] slab at offset (0, b, 0) with the scores of the features' slab at
  offset (b, 0, 0) of the [4, 256, 1024] input block.  The four slabs tile the block, and each store's entry is the
  value at that entry of ONE function of the block's index:
      (r, b, e) ↦ (∑ₖ x0[b, r, k] · w[e, k] + bb[0, e]) · p[0, e].
-/
import proofs.«133416_g24249385353843_cont_9to1_321_4_alg».proof.Proof.Gen.KernelIdeal.Frame
import proofs.«133416_g24249385353843_cont_9to1_321_4_alg».proof.Proof.RowScores

noncomputable section

namespace Cert.Router.Kernel

open Idealize.ShloMosaic Idealize.ShloMosaic.ValueIdx Cert.KernelIdeal Cert.KernelIdeal.Gen

/-- The scores of a block: every batch row, every one of the block's 256 steps, every expert. -/
def blockScores (x0 : FVec Ideal S4x256x1024 .f32) (w : FVec Ideal S16x1024 .f32) (p bb : FVec Ideal S1x16 .f32) :
    FVec Ideal S256x4x16 .f32 :=
  fun y => (∑ k : Fin 1024, x0 (ix3 (y 1) (y 0) k) * w (ix2 (y 2) k) + bb (ix2 0 (y 2))) * p (ix2 0 (y 2))

theorem zero_offsets : (![0, 0] : Fin 2 → Nat) = fun _ => 0 := funext fun a => by fin_cases a <;> rfl

/-- Batch row `b`'s slab of scores, computed from batch row `b`'s slab of the features, is the block's scores on
    the slab: entry (r, 0, e) of the one is entry (r, b, e) of the other. -/
theorem slab_scores (b : Nat)
    (hin : ∀ a, (![b, 0, 0] : Fin 3 → Nat) a + S1x256x1024.size a ≤ S4x256x1024.size a)
    (hout : ∀ a, (![0, b, 0] : Fin 3 → Nat) a + S256x1x16.size a ≤ S256x4x16.size a)
    (x0 : Vec Ideal S4x256x1024 .f32) (w : FVec Ideal S16x1024 .f32) (p bb : FVec Ideal S1x16 .f32)
    (z : S256x1x16.Idx) :
    rowScores w p bb (View.ld (Val := Elt Ideal) x0 (Rect.unit (s := S4x256x1024) ![b, 0, 0] S1x256x1024.size hin)) z
      = blockScores x0 w p bb ((Rect.unit (s := S256x4x16) ![0, b, 0] S256x1x16.size hout).emb z) := by
  have h1 : (z 1).val < 1 := (z 1).isLt
  show (∑ k : Fin 1024, x0 _ * w _ + bb _) * p _ = (∑ k : Fin 1024, x0 _ * w _ + bb _) * p _
  refine congrArg₂ (· * ·) (congrArg₂ (· + ·) (Finset.sum_congr rfl fun k _ =>
    congrArg₂ (· * ·) (congrArg x0 ?_) (congrArg w ?_)) (congrArg bb ?_)) (congrArg p ?_)
  · funext a
    apply Fin.ext
    match a with
    | ⟨0, _⟩ => show b + 1 * 0 = b + 1 * (z 1).val; omega
    | ⟨1, _⟩ => show 0 + 1 * (z 0).val = 0 + 1 * (z 0).val; rfl
    | ⟨2, _⟩ => show 0 + 1 * k.val = k.val; omega
  · funext a
    apply Fin.ext
    match a with
    | ⟨0, _⟩ => show (z 2).val = 0 + 1 * (z 2).val; omega
    | ⟨1, _⟩ => rfl
  · funext a
    apply Fin.ext
    match a with
    | ⟨0, _⟩ => rfl
    | ⟨1, _⟩ => show (z 2).val = 0 + 1 * (z 2).val; omega
  · funext a
    apply Fin.ext
    match a with
    | ⟨0, _⟩ => rfl
    | ⟨1, _⟩ => show (z 2).val = 0 + 1 * (z 2).val; omega

/-- THE BLOCK: what the body leaves in the output window's buffer is the block's scores, as a function of the four
    input blocks. -/
theorem out_eq (x0 : Vec Ideal S4x256x1024 .f32) (x1 : Vec Ideal S16x1024 .f32) (x2 : Vec Ideal S1x16 .f32)
    (x3 : Vec Ideal S1x16 .f32) : out0_4 (F := Ideal) x0 x1 x2 x3 = blockScores x0 x1 x2 x3 := by
  funext y
  unfold out0_4
  refine View.canon_apply_of_pieces (Val := Elt Ideal) (e := .f32) (blockScores x0 x1 x2 x3 : Vec Ideal S256x4x16 .f32) _ ?_ y (cover0_4 _ _ _ _ y)
  simp only [View.ld_unit_zero (S := S16x1024) zero_offsets, View.ld_unit_zero (S := S1x16) zero_offsets]
  intro pc hpc
  simp only [List.mem_cons, List.mem_nil_iff, or_false] at hpc
  rcases hpc with rfl | rfl | rfl | rfl <;> intro z
  · exact (congrFun (pay2_eq x1 x2 x3 _) z).trans (slab_scores 3 inb_S4x256x1024_S1x256x1024_3_0_0 inb_S256x4x16_S256x1x16_0_3_0 x0 x1 x2 x3 z)
  · exact (congrFun (pay1_eq x1 x2 x3 _) z).trans (slab_scores 2 inb_S4x256x1024_S1x256x1024_2_0_0 inb_S256x4x16_S256x1x16_0_2_0 x0 x1 x2 x3 z)
  · exact (congrFun (pay7_eq x1 x2 x3 _) z).trans (slab_scores 1 inb_S4x256x1024_S1x256x1024_1_0_0 inb_S256x4x16_S256x1x16_0_1_0 x0 x1 x2 x3 z)
  · exact (congrFun (pay6_eq x1 x2 x3 _) z).trans (slab_scores 0 inb_S4x256x1024_S1x256x1024_0_0_0 inb_S256x4x16_S256x1x16_0_0_0 x0 x1 x2 x3 z)

end Cert.Router.Kernel

end
-- ==== Proof.AllSteps.lean ====
/-
  From blocks to the array: after the region the kernel's [2048, 4, 16] output array holds the scores of all steps.

  The grid has 8 points.  At point `t` the features' block is steps 256·t … 256·t + 255 of all four batch rows,
  the weights, the scale row and the bias row are whole, and the output block is steps 256·t … 256·t + 255 of the
  output array.  So what point `t` writes back — the block's scores of its input blocks — is block `t` of one
  whole-array function, the scores of all steps computed from the arrays as the region finds them; and the 8 blocks
  tile the 2048 steps, so the array ends at that function.
-/
import proofs.«133416_g24249385353843_cont_9to1_321_4_alg».proof.Proof.Gen.KernelIdeal.Frame
import proofs.«133416_g24249385353843_cont_9to1_321_4_alg».proof.Proof.BlockScores
import proofs.«133416_g24249385353843_cont_9to1_321_4_alg».proof.Proof.Spec

noncomputable section

namespace Cert.Router.Kernel

open Idealize.ShloMosaic Idealize.ShloMosaic.TcCoe Idealize.ShloMosaic.ValueIdx Idealize.SL.Sem
open Cert.KernelIdeal Cert.KernelIdeal.Gen Cert.Router

variable (m : (ℓ : Loc nD τ sig) → Buf (Elt Ideal) ℓ)

/-- The scores of all steps, from the features, the weights, the scale row and the bias row as the region finds
    them (the two rows are the [1, 16] arrays the host lines before the region wrote). -/
abbrev scoresAll (c : Dev nD) : Buf (Elt Ideal) ((c : Thread nD τ).loc main_v2) :=
  allSteps (V m c main_arg0) (V m c main_arg2) (fun e => V m c main_v0 (ix2 0 e)) (fun e => V m c main_v1 (ix2 0 e))

/-- A block's scores are the all-steps scores at an index, whenever the block's inputs are the arrays read where
    that index says: the features at the index's batch row and step, the weights at its expert, the two rows at
    its expert. -/
theorem block_of_all (seq : FVec Ideal S4x2048x1024 .f32) (W : FVec Ideal S16x1024 .f32) (P B : FVec Ideal S1x16 .f32)
    (x0 : FVec Ideal S4x256x1024 .f32) (w : FVec Ideal S16x1024 .f32) (p bb : FVec Ideal S1x16 .f32)
    (y : S256x4x16.Idx) (i : S2048x4x16.Idx)
    (h0 : ∀ k : Fin 1024, x0 (ix3 (y 1) (y 0) k) = seq (ix3 (i 1) (i 0) k))
    (h1 : ∀ k : Fin 1024, w (ix2 (y 2) k) = W (ix2 (i 2) k))
    (h2 : p (ix2 0 (y 2)) = P (ix2 0 (i 2)))
    (h3 : bb (ix2 0 (y 2)) = B (ix2 0 (i 2))) :
    blockScores x0 w p bb y = allSteps seq W (fun e => P (ix2 0 e)) (fun e => B (ix2 0 e)) i := by
  show (∑ k : Fin 1024, x0 (ix3 (y 1) (y 0) k) * w (ix2 (y 2) k) + bb (ix2 0 (y 2))) * p (ix2 0 (y 2))
    = (∑ k : Fin 1024, seq (ix3 (i 1) (i 0) k) * W (ix2 (i 2) k) + B (ix2 0 (i 2))) * P (ix2 0 (i 2))
  rw [h2, h3]
  simp only [h0, h1]

/-- The printed index maps, decided over the grid: the features' block moves along the step axis with the output's
    block and sits at the origin of the other axes; the weights and the two rows are whole; the output's block sits
    at the origin of the batch and expert axes. -/
theorem idx_facts : ∀ t : Fin cfg0.N,
    win0_0.index t (0 : Fin 3) = 0 ∧ win0_0.index t (1 : Fin 3) = win0_4.index t (0 : Fin 3) ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (2 : Fin 3) = 0 :=
  (by decide +kernel : ∀ t : Fin grid0.N, _)

/-- Every one of the 8 blocks of steps is some point's. -/
theorem idx_onto : ∀ q : Fin 8, ∃ t : Fin cfg0.N, win0_4.index t = ![q.val, 0, 0] :=
  (by decide +kernel : ∀ q : Fin 8, ∃ t : Fin grid0.N, win0_4.index t = ![q.val, 0, 0])

/-- WHAT POINT `t` WRITES BACK is block `t` of the scores of all steps. -/
theorem flushed_eq (c : Dev nD) (t : Fin cfg0.N) :
    (dats m 0 c).flushed 4 t = ((cfg0.win 4).blk t).view.read (Elt Ideal) (scoresAll m c) := by
  show (cfg0.win 4).cut (grid0.coords t) ((dats m 0 c).after 4 t) = _
  rw [after0_4, out_eq]
  obtain ⟨a0, a1, a2, b0, b1, c0, c1, d0, d1, o1, o2⟩ := idx_facts t
  funext y
  have e0 : ∀ k : Fin 1024, ((cfg0.win 0).blk t).view.emb (ix3 (y 1) (y 0) k)
      = ix3 ((((cfg0.win 4).blk t).view.emb y) 1) ((((cfg0.win 4).blk t).view.emb y) 0) k := by
    intro k; funext a; apply Fin.ext
    match a with
    | ⟨0, _⟩ => show win0_0.index t (0 : Fin 3) * 4 + 1 * (y 1).val = win0_4.index t (1 : Fin 3) * 4 + 1 * (y 1).val; omega
    | ⟨1, _⟩ => show win0_0.index t (1 : Fin 3) * 256 + 1 * (y 0).val = win0_4.index t (0 : Fin 3) * 256 + 1 * (y 0).val; omega
    | ⟨2, _⟩ => show win0_0.index t (2 : Fin 3) * 1024 + 1 * k.val = k.val; omega
  have e1 : ∀ k : Fin 1024, ((cfg0.win 1).blk t).view.emb (ix2 (y 2) k) = ix2 ((((cfg0.win 4).blk t).view.emb y) 2) k := by
    intro k; funext a; apply Fin.ext
    match a with
    | ⟨0, _⟩ => show win0_1.index t (0 : Fin 2) * 16 + 1 * (y 2).val = win0_4.index t (2 : Fin 3) * 16 + 1 * (y 2).val; omega
    | ⟨1, _⟩ => show win0_1.index t (1 : Fin 2) * 1024 + 1 * k.val = k.val; omega
  have e2 : ((cfg0.win 2).blk t).view.emb (ix2 0 (y 2)) = ix2 0 ((((cfg0.win 4).blk t).view.emb y) 2) := by
    funext a; apply Fin.ext
    match a with
    | ⟨0, _⟩ => show win0_2.index t (0 : Fin 2) * 1 + 1 * 0 = 0; omega
    | ⟨1, _⟩ => show win0_2.index t (1 : Fin 2) * 16 + 1 * (y 2).val = win0_4.index t (2 : Fin 3) * 16 + 1 * (y 2).val; omega
  have e3 : ((cfg0.win 3).blk t).view.emb (ix2 0 (y 2)) = ix2 0 ((((cfg0.win 4).blk t).view.emb y) 2) := by
    funext a; apply Fin.ext
    match a with
    | ⟨0, _⟩ => show win0_3.index t (0 : Fin 2) * 1 + 1 * 0 = 0; omega
    | ⟨1, _⟩ => show win0_3.index t (1 : Fin 2) * 16 + 1 * (y 2).val = win0_4.index t (2 : Fin 3) * 16 + 1 * (y 2).val; omega
  exact block_of_all (V m c main_arg0) (V m c main_arg2) (V m c main_v0) (V m c main_v1)
    (iblk m c 0 t) (iblk m c 1 t) (iblk m c 2 t) (iblk m c 3 t) y (((cfg0.win 4).blk t).view.emb y)
    (fun k => congrArg (V m c main_arg0) (e0 k)) (fun k => congrArg (V m c main_arg2) (e1 k))
    (congrArg (V m c main_v0) e2) (congrArg (V m c main_v1) e3)

/-- An index of the output array is in point `t`'s block iff each coordinate is in the block's range on its axis. -/
theorem mem_blk (t : Fin cfg0.N) (i : S2048x4x16.Idx) :
    i ∈ ((cfg0.win 4).blk t).view.set ↔ ∀ a : Fin 3, win0_4.index t a * S256x4x16.size a ≤ (i a).val
      ∧ (i a).val < win0_4.index t a * S256x4x16.size a + S256x4x16.size a := by
  show i ∈ ((View.whole main_v2).slice (win0_4.rect t)).set ↔ _
  rw [View.set_slice_whole, Rect.mem_set_unit]
  exact Iff.rfl

/-- The 8 blocks of 256 steps tile the 2048 steps: step `s` is in the block of the point whose block index is
    `s / 256`. -/
theorem covered (i : S2048x4x16.Idx) :
    ∃ t : Fin cfg0.N, (cfg0.win 4).flush t = true ∧ i ∈ ((cfg0.win 4).blk t).view.set := by
  have hi0 : (i 0).val < 2048 := (i 0).isLt
  have hi1 : (i 1).val < 4 := (i 1).isLt
  have hi2 : (i 2).val < 16 := (i 2).isLt
  obtain ⟨t, ht⟩ := idx_onto ⟨(i 0).val / 256, by omega⟩
  have q0 : win0_4.index t (0 : Fin 3) = (i 0).val / 256 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 256 ≤ (i 0).val ∧ (i 0).val < win0_4.index t (0 : Fin 3) * 256 + 256; omega
  | ⟨1, _⟩ => show win0_4.index t (1 : Fin 3) * 4 ≤ (i 1).val ∧ (i 1).val < win0_4.index t (1 : Fin 3) * 4 + 4; omega
  | ⟨2, _⟩ => show win0_4.index t (2 : Fin 3) * 16 ≤ (i 2).val ∧ (i 2).val < win0_4.index t (2 : Fin 3) * 16 + 16; omega

/-- THE ARRAY after the region: the scores of all steps. -/
theorem final (c : Dev nD) : (dats m 0 c).arrAt 4 cfg0.N = scoresAll m c :=
  (dats m 0 c).arrAt_eq_of_cover 4 (scoresAll m c) (fun t _ => flushed_eq m c t) (covered)

end Cert.Router.Kernel

end
-- ==== Proof.KernelRun.lean ====
/-
  The kernel's run, read: its result is the array of the later steps' scores.

  Before the region the program reshapes the scale vector and the bias vector [16] into rows [1, 16] — entry (0, e)
  of a row is entry e of its vector — and the region finds the features and the weights as launched.  So the array
  the region leaves, the scores of all steps computed from the arrays as the region finds them, is the scores of all
  steps of the four arguments.  After the region the program drops step 0 of that array: its result is the later
  steps' scores.
-/
import proofs.«133416_g24249385353843_cont_9to1_321_4_alg».proof.Proof.Gen.KernelIdeal.Frame
import proofs.«133416_g24249385353843_cont_9to1_321_4_alg».proof.Proof.AllSteps
import Idealize.ShloMosaic.Lib.StableHlo.Run

noncomputable section

namespace Cert.Router.Kernel

open Idealize.ShloMosaic Idealize.ShloMosaic.TcCoe Idealize.ShloMosaic.ValueIdx Idealize.SL.Sem Idealize.ShloMosaic.StableHlo
open Cert.KernelIdeal Cert.KernelIdeal.Gen Cert.Router

variable (m : (ℓ : Loc nD τ sig) → Buf (Elt Ideal) ℓ) (ρ : Dev nD → PrngReg)

/-- The scale row the region finds is the scale vector reshaped. -/
theorem V_scale (c : Dev nD) :
    (V m c main_v0 : S1x16.Idx → EReal) = shapeCast S1x16 (m ((c : Thread nD τ).loc main_arg1)) shapeCasts_S16_S1x16 := by
  show StableHlo.after hostOps0 (fun b => m (c, b)) (Proc.devRef .tc main_v0) = _
  after_results
  rfl

/-- The bias row the region finds is the bias vector reshaped. -/
theorem V_bias (c : Dev nD) :
    (V m c main_v1 : S1x16.Idx → EReal) = shapeCast S1x16 (m ((c : Thread nD τ).loc main_arg3)) shapeCasts_S16_S1x16 := by
  show StableHlo.after hostOps0 (fun b => m (c, b)) (Proc.devRef .tc main_v1) = _
  after_results
  rfl

/-- A vector [16] reshaped to a row [1, 16] keeps entry e at (0, e). -/
theorem row_of_vector (v : FVec Ideal S16 .f32) (h : S16.ShapeCasts S1x16) (e : Fin 16) :
    shapeCast S1x16 v h (ix2 0 e) = v (ix1 e) :=
  shapeCast_apply v h (ix2 0 e) (ix1 e) (by
    rw [Shape.rowMajor_val_one, Shape.rowMajor_val_two]
    show e.val = 0 * 16 + e.val
    omega)

/-- The array the region leaves is the scores of all steps of the four arguments. -/
theorem scoresAll_eq (c : Dev nD) :
    scoresAll m c = allSteps (m ((c : Thread nD τ).loc main_arg0)) (m ((c : Thread nD τ).loc main_arg2))
      (fun e => m ((c : Thread nD τ).loc main_arg1) (ix1 e)) (fun e => m ((c : Thread nD τ).loc main_arg3) (ix1 e)) := by
  have hs : (fun e : Fin 16 => V m c main_v0 (ix2 0 e)) = fun e => m ((c : Thread nD τ).loc main_arg1) (ix1 e) :=
    funext fun e => (congrFun (V_scale m c) (ix2 0 e)).trans (row_of_vector _ _ e)
  have hb : (fun e : Fin 16 => V m c main_v1 (ix2 0 e)) = fun e => m ((c : Thread nD τ).loc main_arg3) (ix1 e) :=
    funext fun e => (congrFun (V_bias m c) (ix2 0 e)).trans (row_of_vector _ _ e)
  show allSteps (V m c main_arg0) (V m c main_arg2) _ _ = _
  rw [hs, hb, V_main_arg0, V_main_arg2]

/-- The program's result after the line that follows the region: the later steps' scores. -/
theorem result_eq (c : Dev nD) :
    Pipeline.afterTail₀ cfgs (dats m) 0 (V0 m) [hostOps1] c main_v3
      = laterSteps (m ((c : Thread nD τ).loc main_arg0)) (m ((c : Thread nD τ).loc main_arg2))
          (fun e => m ((c : Thread nD τ).loc main_arg1) (ix1 e)) (fun e => m ((c : Thread nD τ).loc main_arg3) (ix1 e)) := by
  unfold Pipeline.afterTail₀
  show StableHlo.after hostOps1 _ (Proc.devRef .tc main_v3) = _
  after_results
  rw [Pipeline.withArrays_arr spec0 launch0.win.arr_inj c _ _ 4]
  show extractStridedSlice S2047x4x16 ![1, 0, 0] ((dats m 0 c).arrAt 4 cfg0.N) slices_S2048x4x16_S2047x4x16_1_0_0 = _
  rw [final, scoresAll_eq]
  exact slice_allSteps _ _ _ _ _

/-- THE RUN: every weakly fair execution of the kernel's program terminates with its result at the later steps'
    scores of the four arguments, and the arguments unchanged. -/
theorem run : θ_run defs (onTc (τ := τ) (main (F := Ideal))) ⟨m, fun _ => 0, ρ⟩ fun r => ∀ c : Dev nD,
      r.2.mem ((c.tc : Thread nD τ).loc main_v3)
        = laterSteps (m ((c : Thread nD τ).loc main_arg0)) (m ((c : Thread nD τ).loc main_arg2))
            (fun e => m ((c : Thread nD τ).loc main_arg1) (ix1 e)) (fun e => m ((c : Thread nD τ).loc main_arg3) (ix1 e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.Router.Kernel

end
-- ==== Proof.lean ====
/-
  A router's expert scores, tiled over time steps, against their one-line definition.

  For features `seq` [4, 2048, 1024] (batch row, time step, feature), expert weights `W` [16, 1024], a bias `b` [16]
  and a scale `pi` [16], both programs return, for every time step after the first, every batch row and every
  expert, the array [2047, 4, 16] of
      score(t + 1, row, e) = (∑ₖ seq[row, t + 1, k] · W[e, k] + b[e]) · pi[e].
  The reference drops step 0 of the features, contracts the feature axes in one product, adds the bias, multiplies
  by the scale and swaps the batch and step axes.  The kernel walks the 2048 steps in 8 blocks of 256; in a block it
  multiplies each batch row's [256, 1024] slab by the transposed weights, adds the bias row and multiplies by the
  scale row, writing the four rows' results side by side; after the 8 blocks it drops step 0 of the [2048, 4, 16]
  array.  On the extended reals the two compute the same sum, the same sum-plus-bias and the same product, entry by
  entry: no law of arithmetic beyond reading each side at an index is needed, and so the inputs' finiteness is never
  used.

  The modules: `Spec` states the scores as one function of the arguments; `Reference` reads the reference's stages
  at an index; `RowScores` reads one store of the kernel body at an index, `BlockScores` the body's whole output
  block, `AllSteps` the output array after the 8 blocks, `KernelRun` the kernel program's result.  The three
  frames are the generated ones; the idealization rewrote nothing, so `preserves` is trivial.
-/
import proofs.«133416_g24249385353843_cont_9to1_321_4_alg».proof.Defs
import proofs.«133416_g24249385353843_cont_9to1_321_4_alg».proof.Proof.Gen.Kernel
import proofs.«133416_g24249385353843_cont_9to1_321_4_alg».proof.Proof.Gen.Kernel.Frame
import proofs.«133416_g24249385353843_cont_9to1_321_4_alg».proof.Proof.Gen.KernelIdeal
import proofs.«133416_g24249385353843_cont_9to1_321_4_alg».proof.Proof.Gen.KernelIdeal.Frame
import proofs.«133416_g24249385353843_cont_9to1_321_4_alg».proof.Proof.Gen.ReferenceIdeal
import proofs.«133416_g24249385353843_cont_9to1_321_4_alg».proof.Proof.Gen.Pre_finite_inputs
import proofs.«133416_g24249385353843_cont_9to1_321_4_alg».proof.Proof.Gen.ReferenceIdeal.Run
import proofs.«133416_g24249385353843_cont_9to1_321_4_alg».proof.Proof.Gen.ReferenceIdeal.Read
import proofs.«133416_g24249385353843_cont_9to1_321_4_alg».proof.Proof.Reference
import proofs.«133416_g24249385353843_cont_9to1_321_4_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the later steps' scores of those
    arguments: the kernel by its run read block by block, the reference by its stages read at an index. -/
theorem algebraic : Cert.algebraic_KernelIdeal_ReferenceIdeal := by
  intro m ρ m' ρ' _ hagree
  refine ⟨_, Cert.Router.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.Router.Reference.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
